-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S24x524288 : Shape := ⟨2, ![24, 524288]⟩
abbrev S524288x48 : Shape := ⟨2, ![524288, 48]⟩
abbrev S48x48 : Shape := ⟨2, ![48, 48]⟩
abbrev S48x24 : Shape := ⟨2, ![48, 24]⟩
abbrev S48x1 : Shape := ⟨2, ![48, 1]⟩
abbrev S_ : Shape := ⟨0, ![]⟩

class Facts : Prop where
  bcast_S_S24x524288 : S_.BroadcastsInDim S24x524288 (![] : Fin 0 → Fin S24x524288.rank)
  reducesTo_S24x524288_S_d0_1 : S24x524288.ReducesTo [0, 1] S_
  h_S_ : 0 < S_.numel
  bcast_S_S524288x48 : S_.BroadcastsInDim S524288x48 (![] : Fin 0 → Fin S524288x48.rank)
  reducesTo_S524288x48_S_d0_1 : S524288x48.ReducesTo [0, 1] S_
  bcast_S_S48x48 : S_.BroadcastsInDim S48x48 (![] : Fin 0 → Fin S48x48.rank)
  reducesTo_S48x48_S_d0_1 : S48x48.ReducesTo [0, 1] S_
  bcast_S_S48x24 : S_.BroadcastsInDim S48x24 (![] : Fin 0 → Fin S48x24.rank)
  reducesTo_S48x24_S_d0_1 : S48x24.ReducesTo [0, 1] S_
  bcast_S_S48x1 : S_.BroadcastsInDim S48x1 (![] : Fin 0 → Fin S48x1.rank)
  reducesTo_S48x1_S_d0_1 : S48x1.ReducesTo [0, 1] S_

variable [Facts]

def fn_part2 {F : FTy → Type} [FloatOps F] (main_arg7 : FVec F S48x24 .f32) (main_v33 : IVec S_ 1) : IVec S_ 1 :=
  let main_v34 : FVec F S48x24 .f32 := Host.absf main_arg7
  let main_cst_12 : FVec F S_ .f32 := constant S_ .f32 0x7F800000#32
  let main_v35 : FVec F S48x24 .f32 := broadcastInDim S48x24 ![] bcast_S_S48x24 main_cst_12
  let main_v36 : IVec S48x24 1 := cmpf .olt main_v34 main_v35
  let main_c_13 : IVec S_ 1 := constantI S_ 1 1#1
  let main_v37 : IVec S_ 1 := (fun x v => Host.reduce IntOp.andi x v reducesTo_S48x24_S_d0_1 h_S_) main_v36 main_c_13
  let main_v38 : IVec S_ 1 := andi main_v33 main_v37
  main_v38

def fn_part1 {F : FTy → Type} [FloatOps F] (main_arg4 : FVec F S48x1 .f32) (main_arg5 : FVec F S48x1 .f32) (main_arg6 : FVec F S48x48 .f32) (main_arg7 : FVec F S48x24 .f32) (main_v13 : IVec S_ 1) (main_v16 : IVec S48x24 1) : IVec S_ 1 :=
  let main_c_5 : IVec S_ 1 := constantI S_ 1 1#1
  let main_v17 : IVec S_ 1 := (fun x v => Host.reduce IntOp.andi x v reducesTo_S48x24_S_d0_1 h_S_) main_v16 main_c_5
  let main_v18 : IVec S_ 1 := andi main_v13 main_v17
  let main_v19 : FVec F S48x1 .f32 := Host.absf main_arg4
  let main_cst_6 : FVec F S_ .f32 := constant S_ .f32 0x7F800000#32
  let main_v20 : FVec F S48x1 .f32 := broadcastInDim S48x1 ![] bcast_S_S48x1 main_cst_6
  let main_v21 : IVec S48x1 1 := cmpf .olt main_v19 main_v20
  let main_c_7 : IVec S_ 1 := constantI S_ 1 1#1
  let main_v22 : IVec S_ 1 := (fun x v => Host.reduce IntOp.andi x v reducesTo_S48x1_S_d0_1 h_S_) main_v21 main_c_7
  let main_v23 : IVec S_ 1 := andi main_v18 main_v22
  let main_v24 : FVec F S48x1 .f32 := Host.absf main_arg5
  let main_cst_8 : FVec F S_ .f32 := constant S_ .f32 0x7F800000#32
  let main_v25 : FVec F S48x1 .f32 := broadcastInDim S48x1 ![] bcast_S_S48x1 main_cst_8
  let main_v26 : IVec S48x1 1 := cmpf .olt main_v24 main_v25
  let main_c_9 : IVec S_ 1 := constantI S_ 1 1#1
  let main_v27 : IVec S_ 1 := (fun x v => Host.reduce IntOp.andi x v reducesTo_S48x1_S_d0_1 h_S_) main_v26 main_c_9
  let main_v28 : IVec S_ 1 := andi main_v23 main_v27
  let main_v29 : FVec F S48x48 .f32 := Host.absf main_arg6
  let main_cst_10 : FVec F S_ .f32 := constant S_ .f32 0x7F800000#32
  let main_v30 : FVec F S48x48 .f32 := broadcastInDim S48x48 ![] bcast_S_S48x48 main_cst_10
  let main_v31 : IVec S48x48 1 := cmpf .olt main_v29 main_v30
  let main_c_11 : IVec S_ 1 := constantI S_ 1 1#1
  let main_v32 : IVec S_ 1 := (fun x v => Host.reduce IntOp.andi x v reducesTo_S48x48_S_d0_1 h_S_) main_v31 main_c_11
  let main_v33 : IVec S_ 1 := andi main_v28 main_v32
  fn_part2 (F := F) main_arg7 main_v33

def fn {F : FTy → Type} [FloatOps F] (main_arg0 : FVec F S24x524288 .f32) (main_arg1 : FVec F S524288x48 .f32) (main_arg2 : FVec F S48x48 .f32) (main_arg3 : FVec F S48x24 .f32) (main_arg4 : FVec F S48x1 .f32) (main_arg5 : FVec F S48x1 .f32) (main_arg6 : FVec F S48x48 .f32) (main_arg7 : FVec F S48x24 .f32) : IVec S_ 1 :=
  let main_v0 : FVec F S24x524288 .f32 := Host.absf main_arg0
  let main_cst : FVec F S_ .f32 := constant S_ .f32 0x7F800000#32
  let main_v1 : FVec F S24x524288 .f32 := broadcastInDim S24x524288 ![] bcast_S_S24x524288 main_cst
  let main_v2 : IVec S24x524288 1 := cmpf .olt main_v0 main_v1
  let main_c : IVec S_ 1 := constantI S_ 1 1#1
  let main_v3 : IVec S_ 1 := (fun x v => Host.reduce IntOp.andi x v reducesTo_S24x524288_S_d0_1 h_S_) main_v2 main_c
  let main_v4 : FVec F S524288x48 .f32 := Host.absf main_arg1
  let main_cst_0 : FVec F S_ .f32 := constant S_ .f32 0x7F800000#32
  let main_v5 : FVec F S524288x48 .f32 := broadcastInDim S524288x48 ![] bcast_S_S524288x48 main_cst_0
  let main_v6 : IVec S524288x48 1 := cmpf .olt main_v4 main_v5
  let main_c_1 : IVec S_ 1 := constantI S_ 1 1#1
  let main_v7 : IVec S_ 1 := (fun x v => Host.reduce IntOp.andi x v reducesTo_S524288x48_S_d0_1 h_S_) main_v6 main_c_1
  let main_v8 : IVec S_ 1 := andi main_v3 main_v7
  let main_v9 : FVec F S48x48 .f32 := Host.absf main_arg2
  let main_cst_2 : FVec F S_ .f32 := constant S_ .f32 0x7F800000#32
  let main_v10 : FVec F S48x48 .f32 := broadcastInDim S48x48 ![] bcast_S_S48x48 main_cst_2
  let main_v11 : IVec S48x48 1 := cmpf .olt main_v9 main_v10
  let main_c_3 : IVec S_ 1 := constantI S_ 1 1#1
  let main_v12 : IVec S_ 1 := (fun x v => Host.reduce IntOp.andi x v reducesTo_S48x48_S_d0_1 h_S_) main_v11 main_c_3
  let main_v13 : IVec S_ 1 := andi main_v8 main_v12
  let main_v14 : FVec F S48x24 .f32 := Host.absf main_arg3
  let main_cst_4 : FVec F S_ .f32 := constant S_ .f32 0x7F800000#32
  let main_v15 : FVec F S48x24 .f32 := broadcastInDim S48x24 ![] bcast_S_S48x24 main_cst_4
  let main_v16 : IVec S48x24 1 := cmpf .olt main_v14 main_v15
  fn_part1 (F := F) main_arg4 main_arg5 main_arg6 main_arg7 main_v13 main_v16
-- ==== Kernel.lean ====
abbrev S24x524288 : Shape := ⟨2, ![24, 524288]⟩
abbrev S524288x48 : Shape := ⟨2, ![524288, 48]⟩
abbrev S48x48 : Shape := ⟨2, ![48, 48]⟩
abbrev S48x24 : Shape := ⟨2, ![48, 24]⟩
abbrev S48x1 : Shape := ⟨2, ![48, 1]⟩
abbrev S_ : Shape := ⟨0, ![]⟩
abbrev S1 : Shape := ⟨1, ![1]⟩
abbrev S24x24 : Shape := ⟨2, ![24, 24]⟩
abbrev S24x48 : Shape := ⟨2, ![24, 48]⟩
abbrev S1x48 : Shape := ⟨2, ![1, 48]⟩
abbrev S24x8192 : Shape := ⟨2, ![24, 8192]⟩
abbrev S8192x48 : Shape := ⟨2, ![8192, 48]⟩

abbrev nBuf : Space → Nat
  | .hbm => 20
  | .vmem => 12
  | .smem => 0
  | _ => 0

abbrev bufTy : (tb : Table) → Fin (tcTables nBuf tb) → BufTy
  | .hbm, ⟨0, _⟩ => ⟨S24x524288, .f32⟩
  | .hbm, ⟨1, _⟩ => ⟨S524288x48, .f32⟩
  | .hbm, ⟨2, _⟩ => ⟨S48x48, .f32⟩
  | .hbm, ⟨3, _⟩ => ⟨S48x24, .f32⟩
  | .hbm, ⟨4, _⟩ => ⟨S48x1, .f32⟩
  | .hbm, ⟨5, _⟩ => ⟨S48x1, .f32⟩
  | .hbm, ⟨6, _⟩ => ⟨S48x48, .f32⟩
  | .hbm, ⟨7, _⟩ => ⟨S48x24, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S24x24, .f32⟩
  | .hbm, ⟨12, _⟩ => ⟨S48x24, .f32⟩
  | .hbm, ⟨13, _⟩ => ⟨S48x48, .f32⟩
  | .hbm, ⟨14, _⟩ => ⟨S48x48, .f32⟩
  | .hbm, ⟨15, _⟩ => ⟨S24x48, .f32⟩
  | .hbm, ⟨16, _⟩ => ⟨S24x48, .f32⟩
  | .hbm, ⟨17, _⟩ => ⟨S1x48, .f32⟩
  | .hbm, ⟨18, _⟩ => ⟨S1x48, .f32⟩
  | .hbm, ⟨19, _⟩ => ⟨S524288x48, .f32⟩
  | .local _ .vmem, ⟨0, _⟩ => ⟨S24x8192, .f32⟩
  | .local _ .vmem, ⟨1, _⟩ => ⟨S24x8192, .f32⟩
  | .local _ .vmem, ⟨2, _⟩ => ⟨S8192x48, .f32⟩
  | .local _ .vmem, ⟨3, _⟩ => ⟨S8192x48, .f32⟩
  | .local _ .vmem, ⟨4, _⟩ => ⟨S48x48, .f32⟩
  | .local _ .vmem, ⟨5, _⟩ => ⟨S24x48, .f32⟩
  | .local _ .vmem, ⟨6, _⟩ => ⟨S1x48, .f32⟩
  | .local _ .vmem, ⟨7, _⟩ => ⟨S24x48, .f32⟩
  | .local _ .vmem, ⟨8, _⟩ => ⟨S48x48, .f32⟩
  | .local _ .vmem, ⟨9, _⟩ => ⟨S1x48, .f32⟩
  | .local _ .vmem, ⟨10, _⟩ => ⟨S8192x48, .f32⟩
  | .local _ .vmem, ⟨11, _⟩ => ⟨S8192x48, .f32⟩
  | _, _ => ⟨S24x524288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S24x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8192x48 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1 : S_.BroadcastsInDim S1 (![] : Fin 0 → Fin S1.rank)
  bcast_S_S24x24 : S_.BroadcastsInDim S24x24 (![] : Fin 0 → Fin S24x24.rank)
  transposes_S48x48_S48x48_1_0 : S48x48.Transposes [1, 0] S48x48
  transposes_S48x24_S24x48_1_0 : S48x24.Transposes [1, 0] S24x48
  transposes_S48x1_S1x48_1_0 : S48x1.Transposes [1, 0] S1x48
  inb_S24x8192_S24x8192_0_0 : ∀ a, (![0, 0] : Fin 2 → Nat) a + S24x8192.size a ≤ S24x8192.size a
  h_S24x8192 : 0 < S24x8192.numel
  inb_S8192x48_S8192x48_0_0 : ∀ a, (![0, 0] : Fin 2 → Nat) a + S8192x48.size a ≤ S8192x48.size a
  h_S8192x48 : 0 < S8192x48.numel
  inb_S48x48_S48x48_0_0 : ∀ a, (![0, 0] : Fin 2 → Nat) a + S48x48.size a ≤ S48x48.size a
  h_S48x48 : 0 < S48x48.numel
  shapeCasts_S48x48_S48x48 : S48x48.ShapeCasts S48x48
  inb_S24x48_S24x48_0_0 : ∀ a, (![0, 0] : Fin 2 → Nat) a + S24x48.size a ≤ S24x48.size a
  h_S24x48 : 0 < S24x48.numel
  shapeCasts_S24x48_S24x48 : S24x48.ShapeCasts S24x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S8192x48 : S1x48.Broadcasts S8192x48
  scatter_S48x24_S1_S24x24_01_n_0_0_wf : ScatterDims.WF S48x24 S1 S24x24 [0, 1] [] [0] 0
  dot_S8192x48_S48x48_S8192x48_1_0_0_1_n_n_wf : DotDims.WF S8192x48 S48x48 S8192x48 [1] [0] [0] [1] [] []
  dot_S24x8192_S24x48_S8192x48_0_0_1_1_n_n_wf : DotDims.WF S24x8192 S24x48 S8192x48 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S24x8192.size a ≤ S24x524288.size a
  hwx0_0 : ∀ i : grid0.Coords, EltTy.bits .f32 = 32 ∨ (Rect.block (s := S24x524288) S24x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x48.size a ≤ S524288x48.size a
  hwx0_1 : ∀ i : grid0.Coords, EltTy.bits .f32 = 32 ∨ (Rect.block (s := S524288x48) S8192x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x48.size a ≤ S48x48.size a
  hwx0_2 : ∀ i : grid0.Coords, EltTy.bits .f32 = 32 ∨ (Rect.block (s := S48x48) S48x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x48.size a ≤ S24x48.size a
  hwx0_3 : ∀ i : grid0.Coords, EltTy.bits .f32 = 32 ∨ (Rect.block (s := S24x48) S24x48.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x48.size a ≤ S1x48.size a
  hwx0_4 : ∀ i : grid0.Coords, EltTy.bits .f32 = 32 ∨ (Rect.block (s := S1x48) S1x48.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S24x48.size a ≤ S24x48.size a
  hwx0_5 : ∀ i : grid0.Coords, EltTy.bits .f32 = 32 ∨ (Rect.block (s := S24x48) S24x48.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S48x48.size a ≤ S48x48.size a
  hwx0_6 : ∀ i : grid0.Coords, EltTy.bits .f32 = 32 ∨ (Rect.block (s := S48x48) S48x48.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x48.size a ≤ S1x48.size a
  hwx0_7 : ∀ i : grid0.Coords, EltTy.bits .f32 = 32 ∨ (Rect.block (s := S1x48) S1x48.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x48.size a ≤ S524288x48.size a
  hwx0_8 : ∀ i : grid0.Coords, EltTy.bits .f32 = 32 ∨ (Rect.block (s := S524288x48) S8192x48.size (cc0_transform_8 i) (hinb0_8 i)).WholeWords (EltTy.packing .f32)

variable [Facts₀]

def scatter_S48x24_S1_S24x24_01_n_0_0 : ScatterDims S48x24 S1 S24x24 where
  updateWindowDims := [0, 1]
  insertedWindowDims := []
  scatterDimsToOperandDims := [0]
  indexVectorDim := 0
  wf := scatter_S48x24_S1_S24x24_01_n_0_0_wf
def dot_S8192x48_S48x48_S8192x48_1_0_0_1_n_n : DotDims S8192x48 S48x48 S8192x48 where
  lhsContracting := [1]
  rhsContracting := [0]
  lhsNonContracting := [0]
  rhsNonContracting := [1]
  lhsBatch := []
  rhsBatch := []
  wf := dot_S8192x48_S48x48_S8192x48_1_0_0_1_n_n_wf
def dot_S24x8192_S24x48_S8192x48_0_0_1_1_n_n : DotDims S24x8192 S24x48 S8192x48 where
  lhsContracting := [0]
  rhsContracting := [0]
  lhsNonContracting := [1]
  rhsNonContracting := [1]
  lhsBatch := []
  rhsBatch := []
  wf := dot_S24x8192_S24x48_S8192x48_0_0_1_1_n_n_wf

abbrev win0_0 : Pipeline.Window sig grid0 :=
  Pipeline.Window.ofSpec (Memref.whole main_arg0) S24x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S48x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S24x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x48.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S24x48.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S48x48.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x48.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S8192x48.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S24x524288 : Shape := ⟨2, ![24, 524288]⟩
abbrev S524288x48 : Shape := ⟨2, ![524288, 48]⟩
abbrev S48x48 : Shape := ⟨2, ![48, 48]⟩
abbrev S48x24 : Shape := ⟨2, ![48, 24]⟩
abbrev S48x1 : Shape := ⟨2, ![48, 1]⟩
abbrev S48x524288 : Shape := ⟨2, ![48, 524288]⟩
abbrev S_ : Shape := ⟨0, ![]⟩
abbrev S1 : Shape := ⟨1, ![1]⟩
abbrev S24x24 : Shape := ⟨2, ![24, 24]⟩

abbrev nBuf : Space → Nat
  | .hbm => 53
  | .vmem => 0
  | .smem => 0
  | _ => 0

abbrev bufTy : (tb : Table) → Fin (tcTables nBuf tb) → BufTy
  | .hbm, ⟨0, _⟩ => ⟨S24x524288, .f32⟩
  | .hbm, ⟨1, _⟩ => ⟨S524288x48, .f32⟩
  | .hbm, ⟨2, _⟩ => ⟨S48x48, .f32⟩
  | .hbm, ⟨3, _⟩ => ⟨S48x24, .f32⟩
  | .hbm, ⟨4, _⟩ => ⟨S48x1, .f32⟩
  | .hbm, ⟨5, _⟩ => ⟨S48x1, .f32⟩
  | .hbm, ⟨6, _⟩ => ⟨S48x48, .f32⟩
  | .hbm, ⟨7, _⟩ => ⟨S48x24, .f32⟩
  | .hbm, ⟨8, _⟩ => ⟨S48x524288, .f32⟩
  | .hbm, ⟨9, _⟩ => ⟨S48x524288, .f32⟩
  | .hbm, ⟨10, _⟩ => ⟨S48x524288, .f32⟩
  | .hbm, ⟨11, _⟩ => ⟨S48x524288, .f32⟩
  | .hbm, ⟨12, _⟩ => ⟨S48x524288, .f32⟩
  | .hbm, ⟨13, _⟩ => ⟨S48x524288, .f32⟩
  | .hbm, ⟨14, _⟩ => ⟨S48x524288, .f32⟩
  | .hbm, ⟨15, _⟩ => ⟨S48x524288, .f32⟩
  | .hbm, ⟨16, _⟩ => ⟨S_, .f32⟩
  | .hbm, ⟨17, _⟩ => ⟨S48x524288, .f32⟩
  | .hbm, ⟨18, _⟩ => ⟨S48x524288, .f32⟩
  | .hbm, ⟨19, _⟩ => ⟨S_, .f32⟩
  | .hbm, ⟨20, _⟩ => ⟨S48x524288, .f32⟩
  | .hbm, ⟨21, _⟩ => ⟨S48x524288, .f32⟩
  | .hbm, ⟨22, _⟩ => ⟨S_, .f32⟩
  | .hbm, ⟨23, _⟩ => ⟨S48x524288, .f32⟩
  | .hbm, ⟨24, _⟩ => ⟨S48x524288, .f32⟩
  | .hbm, ⟨25, _⟩ => ⟨S_, .f32⟩
  | .hbm, ⟨26, _⟩ => ⟨S48x524288, .f32⟩
  | .hbm, ⟨27, _⟩ => ⟨S48x524288, .f32⟩
  | .hbm, ⟨28, _⟩ => ⟨S_, .i32⟩
  | .hbm, ⟨29, _⟩ => ⟨S1, .i32⟩
  | .hbm, ⟨30, _⟩ => ⟨S_, .f32⟩
  | .hbm, ⟨31, _⟩ => ⟨S24x24, .f32⟩
  | .hbm, ⟨32, _⟩ => ⟨S48x24, .f32⟩
  | .hbm, ⟨33, _⟩ => ⟨S_, .f32⟩
  | .hbm, ⟨34, _⟩ => ⟨S48x524288, .f32⟩
  | .hbm, ⟨35, _⟩ => ⟨S48x524288, .f32⟩
  | .hbm, ⟨36, _⟩ => ⟨S48x524288, .f32⟩
  | .hbm, ⟨37, _⟩ => ⟨S48x524288, .f32⟩
  | .hbm, ⟨38, _⟩ => ⟨S48x524288, .f32⟩
  | .hbm, ⟨39, _⟩ => ⟨S48x524288, .f32⟩
  | .hbm, ⟨40, _⟩ => ⟨S48x524288, .f32⟩
  | .hbm, ⟨41, _⟩ => ⟨S48x524288, .f32⟩
  | .hbm, ⟨42, _⟩ => ⟨S48x524288, .f32⟩
  | .hbm, ⟨43, _⟩ => ⟨S48x524288, .f32⟩
  | .hbm, ⟨44, _⟩ => ⟨S_, .f32⟩
  | .hbm, ⟨45, _⟩ => ⟨S48x524288, .f32⟩
  | .hbm, ⟨46, _⟩ => ⟨S48x524288, .f32⟩
  | .hbm, ⟨47, _⟩ => ⟨S_, .f32⟩
  | .hbm, ⟨48, _⟩ => ⟨S48x524288, .f32⟩
  | .hbm, ⟨49, _⟩ => ⟨S48x524288, .f32⟩
  | .hbm, ⟨50, _⟩ => ⟨S48x524288, .f32⟩
  | .hbm, ⟨51, _⟩ => ⟨S48x524288, .f32⟩
  | .hbm, ⟨52, _⟩ => ⟨S524288x48, .f32⟩
  | _, _ => ⟨S24x524288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  transposes_S524288x48_S48x524288_1_0 : S524288x48.Transposes [1, 0] S48x524288
  bcast_S48x1_S48x524288_0_1 : S48x1.BroadcastsInDim S48x524288 (![0, 1] : Fin 2 → Fin S48x524288.rank)
  bcast_S_S48x524288 : S_.BroadcastsInDim S48x524288 (![] : Fin 0 → Fin S48x524288.rank)
  bcast_S_S1 : S_.BroadcastsInDim S1 (![] : Fin 0 → Fin S1.rank)
  bcast_S_S24x24 : S_.BroadcastsInDim S24x24 (![] : Fin 0 → Fin S24x24.rank)
  transposes_S48x524288_S524288x48_1_0 : S48x524288.Transposes [1, 0] S524288x48
  dot_S48x48_S48x524288_S48x524288_1_0_0_1_n_n_wf : DotDims.WF S48x48 S48x524288 S48x524288 [1] [0] [0] [1] [] []
  dot_S48x24_S24x524288_S48x524288_1_0_0_1_n_n_wf : DotDims.WF S48x24 S24x524288 S48x524288 [1] [0] [0] [1] [] []
  scatter_S48x24_S1_S24x24_01_n_0_0_wf : ScatterDims.WF S48x24 S1 S24x24 [0, 1] [] [0] 0

variable [Facts₀]

def dot_S48x48_S48x524288_S48x524288_1_0_0_1_n_n : DotDims S48x48 S48x524288 S48x524288 where
  lhsContracting := [1]
  rhsContracting := [0]
  lhsNonContracting := [0]
  rhsNonContracting := [1]
  lhsBatch := []
  rhsBatch := []
  wf := dot_S48x48_S48x524288_S48x524288_1_0_0_1_n_n_wf
def dot_S48x24_S24x524288_S48x524288_1_0_0_1_n_n : DotDims S48x24 S24x524288 S48x524288 where
  lhsContracting := [1]
  rhsContracting := [0]
  lhsNonContracting := [0]
  rhsNonContracting := [1]
  lhsBatch := []
  rhsBatch := []
  wf := dot_S48x24_S24x524288_S48x524288_1_0_0_1_n_n_wf
def scatter_S48x24_S1_S24x24_01_n_0_0 : ScatterDims S48x24 S1 S24x24 where
  updateWindowDims := [0, 1]
  insertedWindowDims := []
  scatterDimsToOperandDims := [0]
  indexVectorDim := 0
  wf := scatter_S48x24_S1_S24x24_01_n_0_0_wf

class Facts : Prop extends Facts₀ where

variable [Facts]
-- ==== Proof.CellSpec.lean ====
/-
  The gated cell update, as one function of its arguments.

  For a batch row `b` and a hidden unit `h` the result is

      out[b, h] = (1 - z) · r[b, h] + z · σ(Σ_k r[b, k] · W[h, k] + Σ_j x[j, b] · Pm[h, j] + b_v[h]),
      z         = z_lo + z_span · σ(Σ_k r[b, k] · W_z[h, k] + Σ_j x[j, b] · P_z[h, j] + b_z[h]),

  where `σ y = 1 / (1 + e^(-y))` on the extended reals, `Pm` is the input projection with its lower rows
  masked, and `z_lo`, `z_span`, `1` are the values of three 32-bit words that both programs spell alike.
  Everything here is scalar: a row of `r`, a column of `x`, a row of each weight matrix and a bias entry go
  in, one extended real comes out.  A tile of the kernel and the whole array of the reference are both
  this function read at their own indices.
-/
import Idealize.ShloMosaic.PureOps.Ideal
import Idealize.ShloMosaic.PureOps.IdealRules
import Idealize.ShloMosaic.Lib.ValueIdx

noncomputable section

namespace Cert.GatedCell

open Idealize.ShloMosaic Idealize.ShloMosaic.ValueIdx

/-- The word both programs write for `1.0`. -/
abbrev oneWord : BitVec 32 := 0x3F800000#32
/-- The word both programs write for the gate's floor `z_lo` (the f32 nearest to 0.005). -/
abbrev loWord : BitVec 32 := 0x3BA3D70A#32
/-- The word both programs write for the gate's span `z_hi - z_lo` (the f32 nearest to 0.995). -/
abbrev spanWord : BitVec 32 := 0x3F7EB852#32

/-- The word `0x3F800000` denotes the extended real `1`. -/
theorem ofBits_oneWord : Ideal.ofBits .f32 oneWord = 1 :=
  IdealRules.sign_bit.ideal_onePat .f32

/-- The logistic function spelt as a quotient with the word for `1.0` in both places is the logistic function:
    `1 / (1 + e^(-y))` on every extended real, the infinities included. -/
theorem quotient_eq_logistic (y : EReal) :
    Ideal.div (Ideal.ofBits .f32 oneWord) (Ideal.ofBits .f32 oneWord + Ideal.exp (-y)) = Ideal.logistic y := by
  rw [ofBits_oneWord]; rfl

/-- A unit's pre-activation: the recurrent row against a row of the recurrent weights, plus the input column
    against a row of the input projection, plus the unit's bias. -/
def preact (rrow wrow : Fin 48 → EReal) (xcol prow : Fin 24 → EReal) (bias : EReal) : EReal :=
  (∑ k : Fin 48, rrow k * wrow k) + (∑ j : Fin 24, xcol j * prow j) + bias

/-- The gate `z`: its floor plus its span times the logistic of the gate's pre-activation. -/
def gate (rrow wzrow : Fin 48 → EReal) (xcol pzrow : Fin 24 → EReal) (bz : EReal) : EReal :=
  Ideal.ofBits .f32 loWord + Ideal.ofBits .f32 spanWord * Ideal.logistic (preact rrow wzrow xcol pzrow bz)

/-- One entry of the updated state: the old entry `rbh` kept with weight `1 - z`, the candidate with weight `z`. -/
def update (rrow : Fin 48 → EReal) (xcol : Fin 24 → EReal) (rbh : EReal)
    (wzrow wrow : Fin 48 → EReal) (pzrow pmrow : Fin 24 → EReal) (bz bv : EReal) : EReal :=
  (Ideal.ofBits .f32 oneWord - gate rrow wzrow xcol pzrow bz) * rbh
    + gate rrow wzrow xcol pzrow bz * Ideal.logistic (preact rrow wrow xcol pmrow bv)

/-- A pre-activation does not depend on the order of the two factors in each product. -/
theorem preact_comm (rrow wrow : Fin 48 → EReal) (xcol prow : Fin 24 → EReal) (bias : EReal) :
    (∑ k : Fin 48, wrow k * rrow k) + (∑ j : Fin 24, prow j * xcol j) + bias = preact rrow wrow xcol prow bias := by
  unfold preact
  congr 2
  · exact Finset.sum_congr rfl fun k _ => mul_comm _ _
  · exact Finset.sum_congr rfl fun j _ => mul_comm _ _

/-- THE RESULT ARRAY, index by index, from the eight argument arrays: `x : [24, 524288]`, `r : [524288, 48]`,
    `W, W_z : [48, 48]`, the masked projection `Pm` and `P_z : [48, 24]`, `b_v, b_z : [48, 1]`. -/
def cellArray (x : FVec Ideal ⟨2, ![24, 524288]⟩ .f32) (r : FVec Ideal ⟨2, ![524288, 48]⟩ .f32)
    (W : FVec Ideal ⟨2, ![48, 48]⟩ .f32) (Pm : FVec Ideal ⟨2, ![48, 24]⟩ .f32)
    (bv bz : FVec Ideal ⟨2, ![48, 1]⟩ .f32) (Wz : FVec Ideal ⟨2, ![48, 48]⟩ .f32)
    (Pz : FVec Ideal ⟨2, ![48, 24]⟩ .f32) : FVec Ideal ⟨2, ![524288, 48]⟩ .f32 := fun i =>
  update (fun k => r (ix2 (i 0) k)) (fun j => x (ix2 j (i 0))) (r (ix2 (i 0) (i 1)))
    (fun k => Wz (ix2 (i 1) k)) (fun k => W (ix2 (i 1) k))
    (fun j => Pz (ix2 (i 1) j)) (fun j => Pm (ix2 (i 1) j))
    (bz (ix2 (i 1) (0 : Fin 1))) (bv (ix2 (i 1) (0 : Fin 1)))

/-- THE SAME ARRAY from the arrays as the kernel's windows hold them: the weights and biases already
    transposed (`Wt[k, h] = W[h, k]`, a bias as a row `[1, 48]`). -/
def cellArrayT (x : FVec Ideal ⟨2, ![24, 524288]⟩ .f32) (r : FVec Ideal ⟨2, ![524288, 48]⟩ .f32)
    (Wt : FVec Ideal ⟨2, ![48, 48]⟩ .f32) (Pmt : FVec Ideal ⟨2, ![24, 48]⟩ .f32)
    (bvrow : FVec Ideal ⟨2, ![1, 48]⟩ .f32) (Pzt : FVec Ideal ⟨2, ![24, 48]⟩ .f32)
    (Wzt : FVec Ideal ⟨2, ![48, 48]⟩ .f32) (bzrow : FVec Ideal ⟨2, ![1, 48]⟩ .f32) :
    FVec Ideal ⟨2, ![524288, 48]⟩ .f32 := fun i =>
  update (fun k => r (ix2 (i 0) k)) (fun j => x (ix2 j (i 0))) (r (ix2 (i 0) (i 1)))
    (fun k => Wzt (ix2 k (i 1))) (fun k => Wt (ix2 k (i 1)))
    (fun j => Pzt (ix2 j (i 1))) (fun j => Pmt (ix2 j (i 1)))
    (bzrow (ix2 (0 : Fin 1) (i 1))) (bvrow (ix2 (0 : Fin 1) (i 1)))

end Cert.GatedCell

end
-- ==== Proof.RefIsCell.lean ====
/-
  The reference computes the gated cell update.

  The reference works in the transposed layout `[48, 524288]` (hidden unit first, batch row second) and
  transposes back at the end; it spells the logistic function as the quotient `1 / (1 + e^(-y))`; and in each
  matrix product it writes the weight as the left factor.  Read at an index `(h, b)`, each of its stages is the
  corresponding piece of `GatedCell.update`: the two products commute, the quotient is the logistic function,
  and the final transpose swaps `(h, b)` back to `(b, h)`.  The masked projection (a scatter of zeros into the
  lower rows of `P`) is kept as the one array the reference computes; nothing here looks inside it.
-/
import proofs.«103505_j90494960926876_2_alg».proof.Proof.Gen.ReferenceIdeal.Read
import proofs.«103505_j90494960926876_2_alg».proof.Proof.CellSpec

noncomputable section

namespace Cert.ReferenceIdeal.IsCell

open Cert.ReferenceIdeal Cert.ReferenceIdeal.Read Idealize.ShloMosaic Idealize.ShloMosaic.ValueIdx Cert.GatedCell

variable (x0 : (⟨S24x524288, .f32⟩ : BufTy).Contents (Elt Ideal)) (x1 : (⟨S524288x48, .f32⟩ : BufTy).Contents (Elt Ideal))
  (x2 : (⟨S48x48, .f32⟩ : BufTy).Contents (Elt Ideal)) (x3 : (⟨S48x24, .f32⟩ : BufTy).Contents (Elt Ideal))
  (x4 x5 : (⟨S48x1, .f32⟩ : BufTy).Contents (Elt Ideal)) (x6 : (⟨S48x48, .f32⟩ : BufTy).Contents (Elt Ideal))
  (x7 : (⟨S48x24, .f32⟩ : BufTy).Contents (Elt Ideal))

/-! ## The composed index maps of the stages, at a unit `h` and a batch row `b` -/

theorem lhs48 (h : Fin 48) (b : Fin 524288) (k : Fin 48) : lidx_main_v1 (ix2 h b) k = ix2 h k :=
  funext fun a => Fin.ext (by match a with | ⟨0, _⟩ => rfl | ⟨1, _⟩ => rfl)
theorem rhs48 (h : Fin 48) (b : Fin 524288) (k : Fin 48) : idx_main_v0 (ridx_main_v1 (ix2 h b) k) = ix2 b k :=
  funext fun a => Fin.ext (by match a with | ⟨0, _⟩ => rfl | ⟨1, _⟩ => rfl)
theorem lhs24 (h : Fin 48) (b : Fin 524288) (j : Fin 24) : lidx_main_v2 (ix2 h b) j = ix2 h j :=
  funext fun a => Fin.ext (by match a with | ⟨0, _⟩ => rfl | ⟨1, _⟩ => rfl)
theorem rhs24 (h : Fin 48) (b : Fin 524288) (j : Fin 24) : ridx_main_v2 (ix2 h b) j = ix2 j b :=
  funext fun a => Fin.ext (by match a with | ⟨0, _⟩ => rfl | ⟨1, _⟩ => rfl)
theorem bias_idx (h : Fin 48) (b : Fin 524288) : idx_main_v4 (ix2 h b) = ix2 h (0 : Fin 1) :=
  funext fun a => Fin.ext (by match a with | ⟨0, _⟩ => rfl | ⟨1, _⟩ => rfl)
theorem lhs48' (h : Fin 48) (b : Fin 524288) (k : Fin 48) : lidx_main_v22 (ix2 h b) k = ix2 h k :=
  funext fun a => Fin.ext (by match a with | ⟨0, _⟩ => rfl | ⟨1, _⟩ => rfl)
theorem rhs48' (h : Fin 48) (b : Fin 524288) (k : Fin 48) : idx_main_v0 (ridx_main_v22 (ix2 h b) k) = ix2 b k :=
  funext fun a => Fin.ext (by match a with | ⟨0, _⟩ => rfl | ⟨1, _⟩ => rfl)
theorem lhs24' (h : Fin 48) (b : Fin 524288) (j : Fin 24) : lidx_main_v23 (ix2 h b) j = ix2 h j :=
  funext fun a => Fin.ext (by match a with | ⟨0, _⟩ => rfl | ⟨1, _⟩ => rfl)
theorem rhs24' (h : Fin 48) (b : Fin 524288) (j : Fin 24) : ridx_main_v23 (ix2 h b) j = ix2 j b :=
  funext fun a => Fin.ext (by match a with | ⟨0, _⟩ => rfl | ⟨1, _⟩ => rfl)
theorem bias_idx' (h : Fin 48) (b : Fin 524288) : idx_main_v25 (ix2 h b) = ix2 h (0 : Fin 1) :=
  funext fun a => Fin.ext (by match a with | ⟨0, _⟩ => rfl | ⟨1, _⟩ => rfl)
theorem back_idx (b : Fin 524288) (h : Fin 48) : idx_main_v35 (ix2 b h) = ix2 h b :=
  funext fun a => Fin.ext (by match a with | ⟨0, _⟩ => rfl | ⟨1, _⟩ => rfl)
theorem state_idx (h : Fin 48) (b : Fin 524288) : idx_main_v0 (ix2 h b) = ix2 b h :=
  funext fun a => Fin.ext (by match a with | ⟨0, _⟩ => rfl | ⟨1, _⟩ => rfl)

/-! ## The stages -/

/-- The gate's pre-activation at `(h, b)`: `W_z`'s row `h` against `r`'s row `b`, `P_z`'s row `h` against
    `x`'s column `b`, plus `b_z[h]`. -/
theorem gate_preact (h : Fin 48) (b : Fin 524288) :
    val_main_v5 (F := Ideal) x0 x1 x5 x6 x7 (ix2 h b)
      = preact (fun k => x1 (ix2 b k)) (fun k => x6 (ix2 h k)) (fun j => x0 (ix2 j b)) (fun j => x7 (ix2 h j))
          (x5 (ix2 h (0 : Fin 1))) := by
  rw [val_main_v5_apply, val_main_v3_apply, val_main_v1_apply, val_main_v2_apply, val_main_v4_apply]
  simp only [val_main_v0_apply, lhs48, rhs48, lhs24, rhs24, bias_idx]
  exact preact_comm (fun k => x1 (ix2 b k)) (fun k => x6 (ix2 h k)) (fun j => x0 (ix2 j b)) (fun j => x7 (ix2 h j))
    (x5 (ix2 h (0 : Fin 1)))

/-- The gate at `(h, b)`: the reference's quotient form of the logistic function is the logistic function. -/
theorem gate_eq (h : Fin 48) (b : Fin 524288) :
    val_main_v15 (F := Ideal) x0 x1 x5 x6 x7 (ix2 h b)
      = gate (fun k => x1 (ix2 b k)) (fun k => x6 (ix2 h k)) (fun j => x0 (ix2 j b)) (fun j => x7 (ix2 h j))
          (x5 (ix2 h (0 : Fin 1))) := by
  rw [val_main_v15_apply, val_main_v14_apply, val_main_cst_2_apply, val_main_v13_apply, val_main_v12_apply,
    val_main_cst_1_apply, val_main_v11_apply, val_main_v10_apply, val_main_cst_0_apply, val_main_v9_apply,
    val_main_v8_apply, val_main_cst_apply, val_main_v7_apply, val_main_v6_apply, gate_preact]
  unfold gate
  rw [← quotient_eq_logistic]
  rfl

/-- The candidate's pre-activation at `(h, b)`, with the masked projection `val_main_v18 x3` as the reference
    computes it. -/
theorem cand_preact (h : Fin 48) (b : Fin 524288) :
    val_main_v26 (F := Ideal) x0 x1 x2 x3 x4 (ix2 h b)
      = preact (fun k => x1 (ix2 b k)) (fun k => x2 (ix2 h k)) (fun j => x0 (ix2 j b))
          (fun j => val_main_v18 (F := Ideal) x3 (ix2 h j)) (x4 (ix2 h (0 : Fin 1))) := by
  rw [val_main_v26_apply, val_main_v24_apply, val_main_v22_apply, val_main_v23_apply, val_main_v25_apply]
  simp only [val_main_v0_apply, lhs48', rhs48', lhs24', rhs24', bias_idx']
  exact preact_comm (fun k => x1 (ix2 b k)) (fun k => x2 (ix2 h k)) (fun j => x0 (ix2 j b))
    (fun j => val_main_v18 (F := Ideal) x3 (ix2 h j)) (x4 (ix2 h (0 : Fin 1)))

/-- The candidate at `(h, b)`: the logistic of its pre-activation. -/
theorem cand_eq (h : Fin 48) (b : Fin 524288) :
    val_main_v32 (F := Ideal) x0 x1 x2 x3 x4 (ix2 h b)
      = Ideal.logistic (preact (fun k => x1 (ix2 b k)) (fun k => x2 (ix2 h k)) (fun j => x0 (ix2 j b))
          (fun j => val_main_v18 (F := Ideal) x3 (ix2 h j)) (x4 (ix2 h (0 : Fin 1)))) := by
  rw [val_main_v32_apply, val_main_v31_apply, val_main_cst_6_apply, val_main_v30_apply, val_main_v29_apply,
    val_main_cst_5_apply, val_main_v28_apply, val_main_v27_apply, cand_preact]
  rw [← quotient_eq_logistic]
  rfl

/-- THE REFERENCE'S RESULT is the cell array of its arguments, the projection masked as the reference masks it. -/
theorem result_eq :
    val_main_v35 (F := Ideal) x0 x1 x2 x3 x4 x5 x6 x7
      = cellArray x0 x1 x2 (val_main_v18 (F := Ideal) x3) x4 x5 x6 x7 := by
  funext i
  obtain ⟨b, h, rfl⟩ : ∃ (b : Fin 524288) (h : Fin 48), i = ix2 b h := ⟨i 0, i 1, eq_ix2 i⟩
  rw [val_main_v35_apply, back_idx, val_main_v34_apply, val_main_v21_apply, val_main_v20_apply, val_main_v19_apply,
    val_main_cst_4_apply, val_main_v33_apply, gate_eq, cand_eq, val_main_v0_apply, state_idx]
  rfl

end Cert.ReferenceIdeal.IsCell

end
-- ==== Proof.BodyAtIndex.lean ====
/-
  The kernel body at one entry of its tile.

  At a grid point the body holds a tile of 8192 batch rows: `x`'s columns `[24, 8192]`, `r`'s rows `[8192, 48]`,
  and the six small parameter arrays whole and already transposed.  Its single store writes, at row `p` and
  unit `q` of the tile, the gated update of `r[p, q]`: the two matrix products into a zero accumulator are the
  plain sums over the contracted axis (48 terms against the recurrent weights, 24 against the input
  projection), the bias row is broadcast down the rows, the shape casts are to the same shape, and everything
  else is pointwise.  So the entry is `GatedCell.update` of row `p` of the `r` tile, column `p` of the `x` tile
  and column `q` of each transposed parameter.
-/
import proofs.«103505_j90494960926876_2_alg».proof.Proof.Gen.KernelIdeal.Skeleton
import proofs.«103505_j90494960926876_2_alg».proof.Proof.CellSpec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.GatedCell

/-! ## The two matrix products at an entry -/

local notation "DR" => dot_S8192x48_S48x48_S8192x48_1_0_0_1_n_n
local notation "DX" => dot_S24x8192_S24x48_S8192x48_0_0_1_1_n_n

theorem dr_lhs0 (i : S8192x48.Idx) (c : (DR).contr.Idx) : ((DR).lhsIdx i c 0).val = (i 0).val := by
  unfold DotDims.lhsIdx
  rw [dif_neg (show ¬(0 : Fin S8192x48.rank) ∈ (DR).lhsBatch by decide),
    dif_pos (show (0 : Fin S8192x48.rank) ∈ (DR).lhsNonContracting by decide)]
  rfl
theorem dr_lhs1 (i : S8192x48.Idx) (c : (DR).contr.Idx) : ((DR).lhsIdx i c 1).val = (c ⟨0, by decide⟩).val :=
  (DR).lhsIdx_val_of_single rfl i c
theorem dr_rhs0 (i : S8192x48.Idx) (c : (DR).contr.Idx) : ((DR).rhsIdx i c 0).val = (c ⟨0, by decide⟩).val :=
  (DR).rhsIdx_val_of_single rfl i c
theorem dr_rhs1 (i : S8192x48.Idx) (c : (DR).contr.Idx) : ((DR).rhsIdx i c 1).val = (i 1).val := by
  unfold DotDims.rhsIdx
  rw [dif_neg (show ¬(1 : Fin S48x48.rank) ∈ (DR).rhsBatch by decide),
    dif_pos (show (1 : Fin S48x48.rank) ∈ (DR).rhsNonContracting by decide)]
  rfl

/-- The recurrent product into a zero accumulator, at row `p` and unit `q`: row `p` of the tile against
    column `q` of the (transposed) weights. -/
theorem recurrent_at (v : FVec Ideal S8192x48 .f32) (w : FVec Ideal S48x48 .f32) (p : Fin 8192) (q : Fin 48) :
    matmul DR none v w (constant S8192x48 .f32 0x00000000#32) (ix2 p q) = ∑ k : Fin 48, v (ix2 p k) * w (ix2 k q) := by
  show FloatOps.matmul DR none v w (constant S8192x48 .f32 0x00000000#32) (ix2 p q) = _
  rw [Ideal.matmul_constant_zero_apply, ← Equiv.sum_comp (contrEquiv1 DR 48 rfl rfl).symm]
  refine Finset.sum_congr rfl fun k _ => ?_
  have hk := contrEquiv1_symm_val DR 48 rfl rfl k
  have el : (DR).lhsIdx (ix2 p q) ((contrEquiv1 DR 48 rfl rfl).symm k) = ix2 p k := funext fun a => Fin.ext (by
    match a with
    | ⟨0, _⟩ => exact dr_lhs0 _ _
    | ⟨1, _⟩ => exact (dr_lhs1 _ _).trans hk)
  have er : (DR).rhsIdx (ix2 p q) ((contrEquiv1 DR 48 rfl rfl).symm k) = ix2 k q := funext fun a => Fin.ext (by
    match a with
    | ⟨0, _⟩ => exact (dr_rhs0 _ _).trans hk
    | ⟨1, _⟩ => exact dr_rhs1 _ _)
  rw [el, er]

theorem dx_lhs0 (i : S8192x48.Idx) (c : (DX).contr.Idx) : ((DX).lhsIdx i c 0).val = (c ⟨0, by decide⟩).val :=
  (DX).lhsIdx_val_of_single rfl i c
theorem dx_lhs1 (i : S8192x48.Idx) (c : (DX).contr.Idx) : ((DX).lhsIdx i c 1).val = (i 0).val := by
  unfold DotDims.lhsIdx
  rw [dif_neg (show ¬(1 : Fin S24x8192.rank) ∈ (DX).lhsBatch by decide),
    dif_pos (show (1 : Fin S24x8192.rank) ∈ (DX).lhsNonContracting by decide)]
  rfl
theorem dx_rhs0 (i : S8192x48.Idx) (c : (DX).contr.Idx) : ((DX).rhsIdx i c 0).val = (c ⟨0, by decide⟩).val :=
  (DX).rhsIdx_val_of_single rfl i c
theorem dx_rhs1 (i : S8192x48.Idx) (c : (DX).contr.Idx) : ((DX).rhsIdx i c 1).val = (i 1).val := by
  unfold DotDims.rhsIdx
  rw [dif_neg (show ¬(1 : Fin S24x48.rank) ∈ (DX).rhsBatch by decide),
    dif_pos (show (1 : Fin S24x48.rank) ∈ (DX).rhsNonContracting by decide)]
  rfl

/-- The input product into a zero accumulator, at row `p` and unit `q`: it contracts the LEADING axis of
    both operands, so it is column `p` of the `x` tile against column `q` of the (transposed) projection. -/
theorem input_at (v : FVec Ideal S24x8192 .f32) (w : FVec Ideal S24x48 .f32) (p : Fin 8192) (q : Fin 48) :
    matmul DX none v w (constant S8192x48 .f32 0x00000000#32) (ix2 p q) = ∑ j : Fin 24, v (ix2 j p) * w (ix2 j q) := by
  show FloatOps.matmul DX none v w (constant S8192x48 .f32 0x00000000#32) (ix2 p q) = _
  rw [Ideal.matmul_constant_zero_apply, ← Equiv.sum_comp (contrEquiv1 DX 24 rfl rfl).symm]
  refine Finset.sum_congr rfl fun k _ => ?_
  have hk := contrEquiv1_symm_val DX 24 rfl rfl k
  have el : (DX).lhsIdx (ix2 p q) ((contrEquiv1 DX 24 rfl rfl).symm k) = ix2 k p := funext fun a => Fin.ext (by
    match a with
    | ⟨0, _⟩ => exact (dx_lhs0 _ _).trans hk
    | ⟨1, _⟩ => exact dx_lhs1 _ _)
  have er : (DX).rhsIdx (ix2 p q) ((contrEquiv1 DX 24 rfl rfl).symm k) = ix2 k q := funext fun a => Fin.ext (by
    match a with
    | ⟨0, _⟩ => exact (dx_rhs0 _ _).trans hk
    | ⟨1, _⟩ => exact dx_rhs1 _ _)
  rw [el, er]

/-! ## The bias row broadcast down the tile -/

/-- A bias row `[1, 48]` broadcast to the tile reads, at row `p` and unit `q`, the row's entry `q`. -/
theorem bias_at (v : FVec Ideal S1x48 .f32) (p : Fin 8192) (q : Fin 48) :
    broadcastTo S8192x48 v broadcasts_S1x48_S8192x48 (ix2 p q) = v (ix2 (0 : Fin 1) q) :=
  broadcastTo_apply v broadcasts_S1x48_S8192x48 (ix2 p q) (ix2 (0 : Fin 1) q) (fun a => by
    match a with
    | ⟨0, _⟩ => show 0 = if (1 : Nat) = 1 then 0 else _; rw [if_pos rfl]
    | ⟨1, _⟩ => show q.val = if (48 : Nat) = 1 then 0 else q.val; rw [if_neg (by decide)])

/-! ## The pre-activations and the stored entry -/

/-- A pre-activation as the body computes it — recurrent product plus input product plus broadcast bias — at
    row `p` and unit `q`. -/
theorem preact_at (v0 : FVec Ideal S24x8192 .f32) (v1 : FVec Ideal S8192x48 .f32) (w : FVec Ideal S48x48 .f32)
    (pj : FVec Ideal S24x48 .f32) (bias : FVec Ideal S1x48 .f32) (p : Fin 8192) (q : Fin 48) :
    addf (addf (matmul DR none v1 w (constant S8192x48 .f32 0x00000000#32))
        (matmul DX none v0 pj (constant S8192x48 .f32 0x00000000#32)))
      (broadcastTo S8192x48 bias broadcasts_S1x48_S8192x48) (ix2 p q)
      = preact (fun k => v1 (ix2 p k)) (fun k => w (ix2 k q)) (fun j => v0 (ix2 j p)) (fun j => pj (ix2 j q))
          (bias (ix2 (0 : Fin 1) q)) := by
  rw [addf_apply, addf_apply, recurrent_at, input_at, bias_at]
  rfl

/-- THE STORED ENTRY at row `p` and unit `q` of the tile is the gated update of `r[p, q]`. -/
theorem stored_at (v0 : Vec Ideal S24x8192 .f32) (v1 : Vec Ideal S8192x48 .f32) (v2 : Vec Ideal S48x48 .f32)
    (v4 : Vec Ideal S24x48 .f32) (v6 : Vec Ideal S1x48 .f32) (v8 : Vec Ideal S24x48 .f32) (v10 : Vec Ideal S48x48 .f32)
    (v12 : Vec Ideal S1x48 .f32) (p : Fin 8192) (q : Fin 48) :
    k0_pay1 (F := Ideal) v0 v1 v2 v4 v6 v8 v10 v12 (ix2 p q)
      = update (fun k => v1 (ix2 p k)) (fun j => v0 (ix2 j p)) (v1 (ix2 p q))
          (fun k => v10 (ix2 k q)) (fun k => v2 (ix2 k q)) (fun j => v8 (ix2 j q)) (fun j => v4 (ix2 j q))
          (v12 (ix2 (0 : Fin 1) q)) (v6 (ix2 (0 : Fin 1) q)) := by
  unfold k0_pay1
  simp only [shapeCast_self]
  refine Eq.trans (addf_apply _ _ _) ?_
  refine Eq.trans (congrArg₂ (· + ·) (mulf_apply _ _ _) (mulf_apply _ _ _)) ?_
  unfold update gate
  rw [← preact_at v0 v1 v10 v8 v12 p q, ← preact_at v0 v1 v2 v4 v6 p q]
  rfl

end Cert.KernelIdeal.Body

end
-- ==== Proof.TransposedParams.lean ====
/-
  Transposing the parameters first changes nothing.

  The kernel's wrapper transposes the six small parameter arrays before the call (`Wt[k, h] = W[h, k]`, a bias
  column `[48, 1]` becomes a row `[1, 48]`), and the body then reads column `h` where the mathematics reads
  row `h`.  A transpose read at `(a, b)` is the operand at `(b, a)`; so the cell array written over the
  transposed parameters is the cell array of the parameters themselves.
-/
import proofs.«103505_j90494960926876_2_alg».proof.Proof.CellSpec
import Idealize.ShloMosaic.Lib.Pipeline.Value

noncomputable section

namespace Cert.GatedCell

open Idealize.ShloMosaic Idealize.ShloMosaic.ValueIdx

/-- A transposed `[A, B]` array read at `(b, a)` is the array at `(a, b)`. -/
theorem transpose_ix2 {A B : Nat} {α : Type} (x : (⟨2, ![A, B]⟩ : Shape).Idx → α)
    (h : (⟨2, ![A, B]⟩ : Shape).Transposes [1, 0] ⟨2, ![B, A]⟩) (b : Fin B) (a : Fin A) :
    transpose (⟨2, ![B, A]⟩ : Shape) [1, 0] x h (ix2 b a) = x (ix2 a b) :=
  transpose_apply [1, 0] x h (ix2 b a) (ix2 a b) (fun d => match d with
    | ⟨0, _⟩ => rfl
    | ⟨1, _⟩ => rfl)

/-- THE CELL ARRAY OVER TRANSPOSED PARAMETERS is the cell array. -/
theorem cellArrayT_transposed (x : FVec Ideal ⟨2, ![24, 524288]⟩ .f32) (r : FVec Ideal ⟨2, ![524288, 48]⟩ .f32)
    (W : FVec Ideal ⟨2, ![48, 48]⟩ .f32) (Pm : FVec Ideal ⟨2, ![48, 24]⟩ .f32)
    (bv bz : FVec Ideal ⟨2, ![48, 1]⟩ .f32) (Wz : FVec Ideal ⟨2, ![48, 48]⟩ .f32) (Pz : FVec Ideal ⟨2, ![48, 24]⟩ .f32)
    (hW : (⟨2, ![48, 48]⟩ : Shape).Transposes [1, 0] ⟨2, ![48, 48]⟩)
    (hP : (⟨2, ![48, 24]⟩ : Shape).Transposes [1, 0] ⟨2, ![24, 48]⟩)
    (hb : (⟨2, ![48, 1]⟩ : Shape).Transposes [1, 0] ⟨2, ![1, 48]⟩) :
    cellArrayT x r (transpose (⟨2, ![48, 48]⟩ : Shape) [1, 0] W hW) (transpose (⟨2, ![24, 48]⟩ : Shape) [1, 0] Pm hP)
        (transpose (⟨2, ![1, 48]⟩ : Shape) [1, 0] bv hb) (transpose (⟨2, ![24, 48]⟩ : Shape) [1, 0] Pz hP)
        (transpose (⟨2, ![48, 48]⟩ : Shape) [1, 0] Wz hW) (transpose (⟨2, ![1, 48]⟩ : Shape) [1, 0] bz hb)
      = cellArray x r W Pm bv bz Wz Pz := by
  funext i
  obtain ⟨b, h, rfl⟩ : ∃ (b : Fin 524288) (h : Fin 48), i = ix2 b h := ⟨i 0, i 1, eq_ix2 i⟩
  show update (fun k => r (ix2 b k)) (fun j => x (ix2 j b)) (r (ix2 b h))
      (fun k => transpose (⟨2, ![48, 48]⟩ : Shape) [1, 0] Wz hW (ix2 k h))
      (fun k => transpose (⟨2, ![48, 48]⟩ : Shape) [1, 0] W hW (ix2 k h))
      (fun j => transpose (⟨2, ![24, 48]⟩ : Shape) [1, 0] Pz hP (ix2 j h))
      (fun j => transpose (⟨2, ![24, 48]⟩ : Shape) [1, 0] Pm hP (ix2 j h))
      (transpose (⟨2, ![1, 48]⟩ : Shape) [1, 0] bz hb (ix2 (0 : Fin 1) h))
      (transpose (⟨2, ![1, 48]⟩ : Shape) [1, 0] bv hb (ix2 (0 : Fin 1) h))
    = update (fun k => r (ix2 b k)) (fun j => x (ix2 j b)) (r (ix2 b h))
      (fun k => Wz (ix2 h k)) (fun k => W (ix2 h k)) (fun j => Pz (ix2 h j)) (fun j => Pm (ix2 h j))
      (bz (ix2 h (0 : Fin 1))) (bv (ix2 h (0 : Fin 1)))
  have eWz : (fun k : Fin 48 => transpose (⟨2, ![48, 48]⟩ : Shape) [1, 0] Wz hW (ix2 k h)) = fun k => Wz (ix2 h k) :=
    funext fun k => transpose_ix2 Wz hW k h
  have eW : (fun k : Fin 48 => transpose (⟨2, ![48, 48]⟩ : Shape) [1, 0] W hW (ix2 k h)) = fun k => W (ix2 h k) :=
    funext fun k => transpose_ix2 W hW k h
  have ePz : (fun j : Fin 24 => transpose (⟨2, ![24, 48]⟩ : Shape) [1, 0] Pz hP (ix2 j h)) = fun j => Pz (ix2 h j) :=
    funext fun j => transpose_ix2 Pz hP j h
  have ePm : (fun j : Fin 24 => transpose (⟨2, ![24, 48]⟩ : Shape) [1, 0] Pm hP (ix2 j h)) = fun j => Pm (ix2 h j) :=
    funext fun j => transpose_ix2 Pm hP j h
  have ebz : transpose (⟨2, ![1, 48]⟩ : Shape) [1, 0] bz hb (ix2 (0 : Fin 1) h) = bz (ix2 h (0 : Fin 1)) :=
    transpose_ix2 bz hb (0 : Fin 1) h
  have ebv : transpose (⟨2, ![1, 48]⟩ : Shape) [1, 0] bv hb (ix2 (0 : Fin 1) h) = bv (ix2 h (0 : Fin 1)) :=
    transpose_ix2 bv hb (0 : Fin 1) h
  rw [eWz, eW, ePz, ePm, ebz, ebv]

end Cert.GatedCell

end
-- ==== Proof.TilesToArray.lean ====
/-
  From the tiles to the whole result array.

  The grid has 64 points; point `t` works on batch rows `8192 t … 8192 t + 8191`: it is handed columns
  `8192 t …` of `x`, rows `8192 t …` of `r`, and the six small parameter arrays whole (their block index is
  `(0, 0)` at every point), and it writes rows `8192 t …` of the result.  So what point `t` writes back is
  the tile `t` of ONE array — the cell array over the arrays the windows read — and since every row
  `b` lies in the tile of point `b / 8192`, the tiles cover the result, which therefore ends as that array.
  The arrays the parameter windows read are the wrapper's host transposes of the arguments (and, for the input
  projection, of the masked projection), so the array is the cell array of the arguments themselves.
-/
import proofs.«103505_j90494960926876_2_alg».proof.Proof.Gen.KernelIdeal.Value
import proofs.«103505_j90494960926876_2_alg».proof.Proof.BodyAtIndex
import proofs.«103505_j90494960926876_2_alg».proof.Proof.TransposedParams
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Tiles

open Cert.KernelIdeal Cert.KernelIdeal.Gen Cert.KernelIdeal.Value Idealize.ShloMosaic.ValueIdx Cert.GatedCell

variable (m : (ℓ : Loc nD τ sig) → Buf (Elt Ideal) ℓ) (ρ : Dev nD → PrngReg)

theorem hz : (![0, 0] : Fin 2 → Nat) = fun _ => 0 := funext fun a => by fin_cases a <;> rfl

/-! ## The index maps over the grid -/

/-- At point `t`: `x`'s window is at block `(0, t)`, `r`'s and the result's at `(t, 0)`, every parameter's at
    `(0, 0)` (decided over the 64 points). -/
theorem idx_facts : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## Each window's block at a point, read off its array -/

/-- `x`'s tile at point `t` is columns `8192 t …` of the array. -/
theorem tile_x (c : Dev nD) (t : Fin cfg0.N) (y : S24x8192.Idx) (k : S24x524288.Idx)
    (hk0 : (k 0).val = (y 0).val) (hk1 : (k 1).val = 8192 * t.val + (y 1).val) :
    (iblk m c 0 t : Vec Ideal S24x8192 .f32) y = (V m c main_arg0 : S24x524288.Idx → Elt Ideal .f32) k := by
  obtain ⟨e0, e1, -⟩ := idx_facts t
  unfold iblk
  rw [View.read_apply]
  show (V m c main_arg0 : S24x524288.Idx → Elt Ideal .f32) _ = _
  refine congrArg (V m c main_arg0 : S24x524288.Idx → Elt Ideal .f32) (funext fun a => Fin.ext ?_)
  match a with
  | ⟨0, _⟩ => show win0_0.index t (0 : Fin 2) * 24 + 1 * (y 0).val = (k 0).val; rw [e0, hk0]; omega
  | ⟨1, _⟩ => show win0_0.index t (1 : Fin 2) * 8192 + 1 * (y 1).val = (k 1).val; rw [e1, hk1]; omega

/-- `r`'s tile at point `t` is rows `8192 t …` of the array. -/
theorem tile_r (c : Dev nD) (t : Fin cfg0.N) (y : S8192x48.Idx) (k : S524288x48.Idx)
    (hk0 : (k 0).val = 8192 * t.val + (y 0).val) (hk1 : (k 1).val = (y 1).val) :
    (iblk m c 1 t : Vec Ideal S8192x48 .f32) y = (V m c main_arg1 : S524288x48.Idx → Elt Ideal .f32) k := by
  obtain ⟨-, -, e0, e1, -⟩ := idx_facts t
  unfold iblk
  rw [View.read_apply]
  show (V m c main_arg1 : S524288x48.Idx → Elt Ideal .f32) _ = _
  refine congrArg (V m c main_arg1 : S524288x48.Idx → Elt Ideal .f32) (funext fun a => Fin.ext ?_)
  match a with
  | ⟨0, _⟩ => show win0_1.index t (0 : Fin 2) * 8192 + 1 * (y 0).val = (k 0).val; rw [e0, hk0]; omega
  | ⟨1, _⟩ => show win0_1.index t (1 : Fin 2) * 48 + 1 * (y 1).val = (k 1).val; rw [e1, hk1]; omega

/-- The recurrent weights' window holds its whole (transposed) array at every point. -/
theorem whole_Wt (c : Dev nD) (t : Fin cfg0.N) :
    (iblk m c 2 t : Vec Ideal S48x48 .f32) = (V m c main_v3 : S48x48.Idx → Elt Ideal .f32) := by
  obtain ⟨-, -, -, -, e0, e1, -⟩ := idx_facts t
  funext y
  unfold iblk
  rw [View.read_apply]
  show (V m c main_v3 : S48x48.Idx → Elt Ideal .f32) _ = _
  refine congrArg (V m c main_v3 : S48x48.Idx → Elt Ideal .f32) (funext fun a => Fin.ext ?_)
  match a with
  | ⟨0, _⟩ => show win0_2.index t (0 : Fin 2) * 48 + 1 * (y 0).val = (y 0).val; rw [e0]; omega
  | ⟨1, _⟩ => show win0_2.index t (1 : Fin 2) * 48 + 1 * (y 1).val = (y 1).val; rw [e1]; omega

/-- The masked input projection's window holds its whole (transposed) array at every point. -/
theorem whole_Pmt (c : Dev nD) (t : Fin cfg0.N) :
    (iblk m c 3 t : Vec Ideal S24x48 .f32) = (V m c main_v5 : S24x48.Idx → Elt Ideal .f32) := by
  obtain ⟨-, -, -, -, -, -, e0, e1, -⟩ := idx_facts t
  funext y
  unfold iblk
  rw [View.read_apply]
  show (V m c main_v5 : S24x48.Idx → Elt Ideal .f32) _ = _
  refine congrArg (V m c main_v5 : S24x48.Idx → Elt Ideal .f32) (funext fun a => Fin.ext ?_)
  match a with
  | ⟨0, _⟩ => show win0_3.index t (0 : Fin 2) * 24 + 1 * (y 0).val = (y 0).val; rw [e0]; omega
  | ⟨1, _⟩ => show win0_3.index t (1 : Fin 2) * 48 + 1 * (y 1).val = (y 1).val; rw [e1]; omega

/-- The candidate bias row's window holds its whole array at every point. -/
theorem whole_bv (c : Dev nD) (t : Fin cfg0.N) :
    (iblk m c 4 t : Vec Ideal S1x48 .f32) = (V m c main_v7 : S1x48.Idx → Elt Ideal .f32) := by
  obtain ⟨-, -, -, -, -, -, -, -, e0, e1, -⟩ := idx_facts t
  funext y
  unfold iblk
  rw [View.read_apply]
  show (V m c main_v7 : S1x48.Idx → Elt Ideal .f32) _ = _
  refine congrArg (V m c main_v7 : S1x48.Idx → Elt Ideal .f32) (funext fun a => Fin.ext ?_)
  match a with
  | ⟨0, _⟩ => show win0_4.index t (0 : Fin 2) * 1 + 1 * (y 0).val = (y 0).val; rw [e0]; omega
  | ⟨1, _⟩ => show win0_4.index t (1 : Fin 2) * 48 + 1 * (y 1).val = (y 1).val; rw [e1]; omega

/-- The gate's input projection's window holds its whole (transposed) array at every point. -/
theorem whole_Pzt (c : Dev nD) (t : Fin cfg0.N) :
    (iblk m c 5 t : Vec Ideal S24x48 .f32) = (V m c main_v6 : S24x48.Idx → Elt Ideal .f32) := by
  obtain ⟨-, -, -, -, -, -, -, -, -, -, e0, e1, -⟩ := idx_facts t
  funext y
  unfold iblk
  rw [View.read_apply]
  show (V m c main_v6 : S24x48.Idx → Elt Ideal .f32) _ = _
  refine congrArg (V m c main_v6 : S24x48.Idx → Elt Ideal .f32) (funext fun a => Fin.ext ?_)
  match a with
  | ⟨0, _⟩ => show win0_5.index t (0 : Fin 2) * 24 + 1 * (y 0).val = (y 0).val; rw [e0]; omega
  | ⟨1, _⟩ => show win0_5.index t (1 : Fin 2) * 48 + 1 * (y 1).val = (y 1).val; rw [e1]; omega

/-- The gate's recurrent weights' window holds its whole (transposed) array at every point. -/
theorem whole_Wzt (c : Dev nD) (t : Fin cfg0.N) :
    (iblk m c 6 t : Vec Ideal S48x48 .f32) = (V m c main_v4 : S48x48.Idx → Elt Ideal .f32) := by
  obtain ⟨-, -, -, -, -, -, -, -, -, -, -, -, e0, e1, -⟩ := idx_facts t
  funext y
  unfold iblk
  rw [View.read_apply]
  show (V m c main_v4 : S48x48.Idx → Elt Ideal .f32) _ = _
  refine congrArg (V m c main_v4 : S48x48.Idx → Elt Ideal .f32) (funext fun a => Fin.ext ?_)
  match a with
  | ⟨0, _⟩ => show win0_6.index t (0 : Fin 2) * 48 + 1 * (y 0).val = (y 0).val; rw [e0]; omega
  | ⟨1, _⟩ => show win0_6.index t (1 : Fin 2) * 48 + 1 * (y 1).val = (y 1).val; rw [e1]; omega

/-- The gate's bias row's window holds its whole array at every point. -/
theorem whole_bz (c : Dev nD) (t : Fin cfg0.N) :
    (iblk m c 7 t : Vec Ideal S1x48 .f32) = (V m c main_v8 : S1x48.Idx → Elt Ideal .f32) := by
  obtain ⟨-, -, -, -, -, -, -, -, -, -, -, -, -, -, e0, e1, -⟩ := idx_facts t
  funext y
  unfold iblk
  rw [View.read_apply]
  show (V m c main_v8 : S1x48.Idx → Elt Ideal .f32) _ = _
  refine congrArg (V m c main_v8 : S1x48.Idx → Elt Ideal .f32) (funext fun a => Fin.ext ?_)
  match a with
  | ⟨0, _⟩ => show win0_7.index t (0 : Fin 2) * 1 + 1 * (y 0).val = (y 0).val; rw [e0]; omega
  | ⟨1, _⟩ => show win0_7.index t (1 : Fin 2) * 48 + 1 * (y 1).val = (y 1).val; rw [e1]; omega

/-! ## One entry of a tile against one entry of the array -/

/-- If row `p` of the `r` tile is row `b` of an array `A1`, and column `p` of the `x` tile is column `b` of an
    array `A0`, then the body's stored entry `(p, q)` is entry `(b, q)` of the cell array over `A0`, `A1` and the
    (transposed) parameters the body was handed. -/
theorem tile_entry (v0 : Vec Ideal S24x8192 .f32) (v1 : Vec Ideal S8192x48 .f32) (v2 : Vec Ideal S48x48 .f32)
    (v4 : Vec Ideal S24x48 .f32) (v6 : Vec Ideal S1x48 .f32) (v8 : Vec Ideal S24x48 .f32) (v10 : Vec Ideal S48x48 .f32)
    (v12 : Vec Ideal S1x48 .f32) (A0 : FVec Ideal S24x524288 .f32) (A1 : FVec Ideal S524288x48 .f32)
    (p : Fin 8192) (q : Fin 48) (b : Fin 524288)
    (h1 : ∀ k : Fin 48, v1 (ix2 p k) = A1 (ix2 b k)) (h0 : ∀ j : Fin 24, v0 (ix2 j p) = A0 (ix2 j b)) :
    k0_pay1 (F := Ideal) v0 v1 v2 v4 v6 v8 v10 v12 (ix2 p q) = cellArrayT A0 A1 v2 v4 v6 v8 v10 v12 (ix2 b q) := by
  rw [Body.stored_at]
  have e1 : (fun k : Fin 48 => v1 (ix2 p k)) = fun k => A1 (ix2 b k) := funext h1
  have e0 : (fun j : Fin 24 => v0 (ix2 j p)) = fun j => A0 (ix2 j b) := funext h0
  rw [e1, e0, h1 q]
  rfl

/-! ## What a point writes back, the cover, the final array -/

/-- The cell array over the arrays the nine windows read, as the region finds them. -/
def windowsArray (c : Dev nD) : FVec Ideal S524288x48 .f32 :=
  cellArrayT (V m c main_arg0 : S24x524288.Idx → Elt Ideal .f32) (V m c main_arg1 : S524288x48.Idx → Elt Ideal .f32)
    (V m c main_v3 : S48x48.Idx → Elt Ideal .f32) (V m c main_v5 : S24x48.Idx → Elt Ideal .f32)
    (V m c main_v7 : S1x48.Idx → Elt Ideal .f32) (V m c main_v6 : S24x48.Idx → Elt Ideal .f32)
    (V m c main_v4 : S48x48.Idx → Elt Ideal .f32) (V m c main_v8 : S1x48.Idx → Elt Ideal .f32)

/-- WHAT POINT `t` WRITES BACK is tile `t` of that array. -/
theorem flushed_eq (c : Dev nD) (t : Fin cfg0.N) :
    (dats m 0 c).flushed 8 t = ((cfg0.win 8).blk t).view.read (Elt Ideal) (windowsArray m c) := by
  rw [Value.flushed8]
  unfold out0_8
  rw [View.canon_unit_zero hz]
  simp only [View.ld_unit_zero (S := S24x8192) hz, View.ld_unit_zero (S := S8192x48) hz, View.ld_unit_zero (S := S48x48) hz,
    View.ld_unit_zero (S := S24x48) hz, View.ld_unit_zero (S := S1x48) hz]
  have hN : cfg0.N = 64 := N_0
  have ht : t.val < 64 := hN ▸ t.isLt
  obtain ⟨-, -, -, -, -, -, -, -, -, -, -, -, -, -, -, -, e80, e81⟩ := idx_facts t
  funext y
  obtain ⟨p, q, rfl⟩ : ∃ (p : Fin 8192) (q : Fin 48), y = ix2 p q := ⟨y 0, y 1, eq_ix2 (n0 := 8192) (n1 := 48) y⟩
  have hb : 8192 * t.val + p.val < 524288 := by have := p.isLt; omega
  have hemb : ((cfg0.win 8).blk t).view.emb (ix2 p q) = ix2 (⟨8192 * t.val + p.val, hb⟩ : Fin 524288) q :=
    funext fun a => Fin.ext (by
      match a with
      | ⟨0, _⟩ => show win0_8.index t (0 : Fin 2) * 8192 + 1 * p.val = 8192 * t.val + p.val; rw [e80]; omega
      | ⟨1, _⟩ => show win0_8.index t (1 : Fin 2) * 48 + 1 * q.val = q.val; rw [e81]; omega)
  show k0_pay1 (F := Ideal) (iblk m c 0 t) (iblk m c 1 t) (iblk m c 2 t) (iblk m c 3 t) (iblk m c 4 t) (iblk m c 5 t)
      (iblk m c 6 t) (iblk m c 7 t) (ix2 p q) = windowsArray m c (((cfg0.win 8).blk t).view.emb (ix2 p q))
  rw [hemb, whole_Wt m c t, whole_Pmt m c t, whole_bv m c t, whole_Pzt m c t, whole_Wzt m c t, whole_bz m c t]
  exact tile_entry (iblk m c 0 t : Vec Ideal S24x8192 .f32) (iblk m c 1 t : Vec Ideal S8192x48 .f32)
    (V m c main_v3 : S48x48.Idx → Elt Ideal .f32) (V m c main_v5 : S24x48.Idx → Elt Ideal .f32)
    (V m c main_v7 : S1x48.Idx → Elt Ideal .f32) (V m c main_v6 : S24x48.Idx → Elt Ideal .f32)
    (V m c main_v4 : S48x48.Idx → Elt Ideal .f32) (V m c main_v8 : S1x48.Idx → Elt Ideal .f32)
    (V m c main_arg0 : S24x524288.Idx → Elt Ideal .f32) (V m c main_arg1 : S524288x48.Idx → Elt Ideal .f32)
    p q ⟨8192 * t.val + p.val, hb⟩
    (fun k => tile_r m c t (ix2 p k) (ix2 (⟨8192 * t.val + p.val, hb⟩ : Fin 524288) k) rfl rfl)
    (fun j => tile_x m c t (ix2 j p) (ix2 j (⟨8192 * t.val + p.val, hb⟩ : Fin 524288)) rfl rfl)

/-- An index of the result is in point `t`'s tile iff each coordinate is in the tile's range on its axis. -/
theorem mem_tile (t : Fin cfg0.N) (i : S524288x48.Idx) :
    i ∈ ((cfg0.win 8).blk t).view.set ↔ ∀ a : Fin 2, win0_8.index t a * S8192x48.size a ≤ (i a).val
      ∧ (i a).val < win0_8.index t a * S8192x48.size a + S8192x48.size a := by
  show i ∈ ((View.whole main_v9).slice (win0_8.rect t)).set ↔ _
  rw [View.set_slice_whole, Rect.mem_set_unit]
  exact Iff.rfl

/-- THE TILES COVER THE RESULT: row `b` is in the tile of point `b / 8192`. -/
theorem covered (i : S524288x48.Idx) :
    ∃ t : Fin cfg0.N, (cfg0.win 8).flush t = true ∧ i ∈ ((cfg0.win 8).blk t).view.set := by
  have hN : cfg0.N = 64 := N_0
  have hi0 : (i 0).val < 524288 := (i 0).isLt
  have hi1 : (i 1).val < 48 := (i 1).isLt
  have hlt : (i 0).val / 8192 < cfg0.N := by rw [hN]; omega
  obtain ⟨-, -, -, -, -, -, -, -, -, -, -, -, -, -, -, -, e80, e81⟩ := idx_facts ⟨(i 0).val / 8192, hlt⟩
  refine ⟨⟨(i 0).val / 8192, hlt⟩, flush0_8 _, ?_⟩
  rw [mem_tile]
  intro a
  match a with
  | ⟨0, _⟩ =>
    show win0_8.index ⟨(i 0).val / 8192, hlt⟩ (0 : Fin 2) * 8192 ≤ (i 0).val
      ∧ (i 0).val < win0_8.index ⟨(i 0).val / 8192, hlt⟩ (0 : Fin 2) * 8192 + 8192
    rw [e80]
    show (i 0).val / 8192 * 8192 ≤ (i 0).val ∧ (i 0).val < (i 0).val / 8192 * 8192 + 8192
    omega
  | ⟨1, _⟩ =>
    show win0_8.index ⟨(i 0).val / 8192, hlt⟩ (1 : Fin 2) * 48 ≤ (i 1).val
      ∧ (i 1).val < win0_8.index ⟨(i 0).val / 8192, hlt⟩ (1 : Fin 2) * 48 + 48
    rw [e81]
    omega

/-- THE RESULT ARRAY after the run is the cell array over the arrays the windows read. -/
theorem final (c : Dev nD) : (dats m 0 c).arrAt 8 cfg0.N = windowsArray m c :=
  (dats m 0 c).arrAt_eq_of_cover 8 (windowsArray m c) (fun t _ => flushed_eq m c t) covered

end Cert.KernelIdeal.Tiles

end
-- ==== Proof.KernelRun.lean ====
/-
  The kernel's run, read.

  Before the call the wrapper masks the input projection (it scatters a `[24, 24]` block of zeros over rows
  `24 …` of `P`) and transposes the six small parameter arrays; the windows of the call read those results.
  Reading the host operations back, the array the tiles assemble is the cell array of the arguments with the
  projection masked — which is what every weakly fair execution of the kernel's program leaves in the result,
  the arguments unchanged.
-/
import proofs.«103505_j90494960926876_2_alg».proof.Proof.TilesToArray
import Idealize.ShloMosaic.Lib.StableHlo.Run

noncomputable section

open Idealize.ShloMosaic Idealize.ShloMosaic.TcCoe Idealize.SL.Sem Idealize.ShloMosaic.StableHlo

namespace Cert.KernelIdeal.Run

open Cert.KernelIdeal Cert.KernelIdeal.Gen Cert.KernelIdeal.Value Idealize.ShloMosaic.ValueIdx Cert.GatedCell

variable (m : (ℓ : Loc nD τ sig) → Buf (Elt Ideal) ℓ) (ρ : Dev nD → PrngReg)

/-- The input projection with its lower rows masked, as the wrapper computes it: a `[24, 24]` block of zeros
    scattered into `P` at row 24.  Kept as this one term; nothing below looks inside the scatter. -/
def maskedProjection (P : FVec Ideal S48x24 .f32) : FVec Ideal S48x24 .f32 :=
  Host.scatter scatter_S48x24_S1_S24x24_01_n_0_0 (fun _ b => b) P
    (broadcastInDim S1 ![] bcast_S_S1 (constantI S_ 32 24#32))
    (broadcastInDim S24x24 ![] bcast_S_S24x24 (constant (F := Ideal) S_ .f32 0x00000000#32))

/-! ## What the parameter windows read: the host operations before the call -/

theorem V_Wt (c : Dev nD) : (V m c main_v3 : S48x48.Idx → Elt Ideal .f32)
    = transpose S48x48 [1, 0] (m ((c : Thread nD τ).loc main_arg2)) transposes_S48x48_S48x48_1_0 := by
  dsimp only [V, hostOps0]; after_results

theorem V_Wzt (c : Dev nD) : (V m c main_v4 : S48x48.Idx → Elt Ideal .f32)
    = transpose S48x48 [1, 0] (m ((c : Thread nD τ).loc main_arg6)) transposes_S48x48_S48x48_1_0 := by
  dsimp only [V, hostOps0]; after_results

theorem V_Pmt (c : Dev nD) : (V m c main_v5 : S24x48.Idx → Elt Ideal .f32)
    = transpose S24x48 [1, 0] (maskedProjection (m ((c : Thread nD τ).loc main_arg3))) transposes_S48x24_S24x48_1_0 := by
  dsimp only [V, hostOps0, maskedProjection]; after_results

theorem V_Pzt (c : Dev nD) : (V m c main_v6 : S24x48.Idx → Elt Ideal .f32)
    = transpose S24x48 [1, 0] (m ((c : Thread nD τ).loc main_arg7)) transposes_S48x24_S24x48_1_0 := by
  dsimp only [V, hostOps0]; after_results

theorem V_bv (c : Dev nD) : (V m c main_v7 : S1x48.Idx → Elt Ideal .f32)
    = transpose S1x48 [1, 0] (m ((c : Thread nD τ).loc main_arg4)) transposes_S48x1_S1x48_1_0 := by
  dsimp only [V, hostOps0]; after_results

theorem V_bz (c : Dev nD) : (V m c main_v8 : S1x48.Idx → Elt Ideal .f32)
    = transpose S1x48 [1, 0] (m ((c : Thread nD τ).loc main_arg5)) transposes_S48x1_S1x48_1_0 := by
  dsimp only [V, hostOps0]; after_results

/-! ## The assembled array is the cell array of the arguments -/

/-- The cell array over what the windows read is the cell array of the arguments, the projection masked. -/
theorem windowsArray_eq (c : Dev nD) :
    Tiles.windowsArray m c
      = cellArray (m ((c : Thread nD τ).loc main_arg0)) (m ((c : Thread nD τ).loc main_arg1))
          (m ((c : Thread nD τ).loc main_arg2)) (maskedProjection (m ((c : Thread nD τ).loc main_arg3)))
          (m ((c : Thread nD τ).loc main_arg4)) (m ((c : Thread nD τ).loc main_arg5))
          (m ((c : Thread nD τ).loc main_arg6)) (m ((c : Thread nD τ).loc main_arg7)) := by
  unfold Tiles.windowsArray
  rw [V_main_arg0 m c, V_main_arg1 m c, V_Wt m c, V_Pmt m c, V_bv m c, V_Pzt m c, V_Wzt m c, V_bz m c]
  exact cellArrayT_transposed _ _ _ _ _ _ _ _ transposes_S48x48_S48x48_1_0 transposes_S48x24_S24x48_1_0
    transposes_S48x1_S1x48_1_0

/-- THE KERNEL'S RUN: every weakly fair execution terminates with the result at the cell array of the
    arguments (the projection masked) and the arguments unchanged. -/
theorem run : θ_run defs (onTc (τ := τ) (main (F := Ideal))) ⟨m, fun _ => 0, ρ⟩ fun r => ∀ c : Dev nD,
      r.2.mem ((c : Thread nD τ).loc main_v9)
        = cellArray (m ((c : Thread nD τ).loc main_arg0)) (m ((c : Thread nD τ).loc main_arg1))
            (m ((c : Thread nD τ).loc main_arg2)) (maskedProjection (m ((c : Thread nD τ).loc main_arg3)))
            (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono
    (fun r h c => ⟨(h c).1.trans ((Tiles.final m c).trans (windowsArray_eq m c)), (h c).2⟩)
    (Value.run_blocks m ρ)

end Cert.KernelIdeal.Run

end
-- ==== Proof.lean ====
/-
  A gated recurrent cell update, tiled over the batch, against its plain reference.

  Both programs compute, for every batch row `b` and hidden unit `h`,

      out[b, h] = (1 - z) · r[b, h] + z · σ(Σ_k r[b, k] · W[h, k] + Σ_j x[j, b] · Pm[h, j] + b_v[h]),
      z         = z_lo + z_span · σ(Σ_k r[b, k] · W_z[h, k] + Σ_j x[j, b] · P_z[h, j] + b_z[h]),

  with `σ y = 1 / (1 + e^(-y))` and `Pm` the input projection with its lower rows masked.  They differ in
  arrangement only.  The kernel walks the batch in 64 tiles of 8192 rows, multiplies each tile by parameters its
  wrapper has already transposed, and applies the logistic function as one operation; the reference works on the
  whole arrays in the transposed layout, writes each weight as the left factor of its product, spells the
  logistic function as a quotient, and transposes back.  Over the extended reals these are one function: a
  matrix product into a zero accumulator is the plain sum over the contracted axis on either side, the two
  factors of a product commute, the quotient IS the logistic function (the infinities included), a transpose read
  at `(a, b)` is the operand at `(b, a)`, and the tiles cover the batch.  No law used needs the inputs to be
  finite, so the precondition is never opened.  The masking scatter is the same term in both programs and is
  carried as one array throughout.

  The modules: `CellSpec` (the function), `RefIsCell` (the reference computes it), `BodyAtIndex` (one stored
  entry of a tile), `TransposedParams` (transposing the parameters first changes nothing), `TilesToArray`
  (the tiles assemble the array), `KernelRun` (the kernel's run read back); here, the five claims.
-/
import proofs.«103505_j90494960926876_2_alg».proof.Defs
import proofs.«103505_j90494960926876_2_alg».proof.Proof.Gen.Kernel
import proofs.«103505_j90494960926876_2_alg».proof.Proof.Gen.Kernel.Skeleton
import proofs.«103505_j90494960926876_2_alg».proof.Proof.Gen.Kernel.Launch
import proofs.«103505_j90494960926876_2_alg».proof.Proof.Gen.Kernel.Points
import proofs.«103505_j90494960926876_2_alg».proof.Proof.Gen.Kernel.Frame
import proofs.«103505_j90494960926876_2_alg».proof.Proof.Gen.KernelIdeal
import proofs.«103505_j90494960926876_2_alg».proof.Proof.Gen.KernelIdeal.Skeleton
import proofs.«103505_j90494960926876_2_alg».proof.Proof.Gen.KernelIdeal.Launch
import proofs.«103505_j90494960926876_2_alg».proof.Proof.Gen.KernelIdeal.Points
import proofs.«103505_j90494960926876_2_alg».proof.Proof.Gen.KernelIdeal.Frame
import proofs.«103505_j90494960926876_2_alg».proof.Proof.Gen.ReferenceIdeal
import proofs.«103505_j90494960926876_2_alg».proof.Proof.Gen.Pre_finite_inputs
import proofs.«103505_j90494960926876_2_alg».proof.Proof.Gen.KernelIdeal.Value
import proofs.«103505_j90494960926876_2_alg».proof.Proof.Gen.ReferenceIdeal.Run
import proofs.«103505_j90494960926876_2_alg».proof.Proof.Gen.ReferenceIdeal.Read
import proofs.«103505_j90494960926876_2_alg».proof.Proof.RefIsCell
import proofs.«103505_j90494960926876_2_alg».proof.Proof.KernelRun
import Idealize.ShloMosaic.Adequacy
import Idealize.ShloMosaic.Init

noncomputable section

namespace Cert.Proof

open Idealize.ShloMosaic Idealize.SL.Sem

/-- The word-level kernel runs and leaves its arguments unchanged: its generated frame. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- From memories that agree on the eight arguments both programs end with the cell array of those arguments:
    the kernel by its run read back, the reference by its stages read at an index.  The two masked projections
    are the same scatter of the same argument. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.IsCell.result_eq]
  obtain ⟨a0, a1, a2, a3, a4, a5, a6, a7⟩ := hagree c
  rw [a0, a1, a2, a3, a4, a5, a6, a7]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
